-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x128 .f32) (main_arg1 : FVec F S128x128 .f32) (main_arg2 : IVec S800000 32) (main_arg3 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S50000x128 : Shape := ⟨2, ![50000, 128]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩

abbrev nBuf : Space → Nat
  | .hbm => 22
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S800000, .i32⟩
  | .hbm, ⟨3, _⟩ => ⟨S800000, .i32⟩
  | .hbm, ⟨4, _⟩ => ⟨S50000x128, .bf16⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .bf16⟩
  | .hbm, ⟨14, _⟩ => ⟨S800000x128, .f32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | .hbm, ⟨19, _⟩ => ⟨S128x128, .f32⟩
  | .hbm, ⟨20, _⟩ => ⟨S128x128, .bf16⟩
  | .hbm, ⟨21, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S5000x128, .f32⟩
  | .local _ .vmem, ⟨6, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S800000x128 : Shape := ⟨2, ![800000, 128]⟩

abbrev nBuf : Space → Nat
  | .hbm => 23
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S800000, .i32⟩
  | .hbm, ⟨3, _⟩ => ⟨S800000, .i32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x128, .f32⟩
  | .hbm, ⟨13, _⟩ => ⟨S_, .f32⟩
  | .hbm, ⟨14, _⟩ => ⟨S50000x128, .f32⟩
  | .hbm, ⟨15, _⟩ => ⟨S800000x1, .i32⟩
  | .hbm, ⟨16, _⟩ => ⟨S50000x128, .f32⟩
  | .hbm, ⟨17, _⟩ => ⟨S128x128, .f32⟩
  | .hbm, ⟨18, _⟩ => ⟨S50000x128, .f32⟩
  | .hbm, ⟨19, _⟩ => ⟨S_, .f32⟩
  | .hbm, ⟨20, _⟩ => ⟨S50000x128, .f32⟩
  | .hbm, ⟨21, _⟩ => ⟨S50000x128, .f32⟩
  | .hbm, ⟨22, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.NodeStage.lean ====
/-
  The dense node-level stage of the graph convolution, as ONE function of three arrays, index by index.

  Given the aggregated neighbour features `a` (one row of 128 numbers per node), a 128 × 128 matrix `w` and the
  nodes' own features `x`, node `r`'s output at feature `q` is

      max (∑ k, a[r, k] · w[k, q]) 0 + x[r, q]

  on the extended reals: a linear layer without bias, a rectifier, and the residual. Each output entry depends on
  one row of `a`, one column of `w` and one entry of `x`; rows never interact, which is why the rows may be
  processed in any tiling.
-/
import Idealize.ShloMosaic.PureOps.Ideal
import Idealize.ShloMosaic.Lib.ValueIdx

noncomputable section

namespace Cert.NodeStage

open Idealize.ShloMosaic Idealize.ShloMosaic.ValueIdx

/-- One row of 128 features per node. -/
abbrev Nodes : Shape := ⟨2, ![50000, 128]⟩
/-- The square matrix the linear layer multiplies by. -/
abbrev Weights : Shape := ⟨2, ![128, 128]⟩

/-- The zero the rectifier compares with, kept as the float pattern both programs spell. -/
abbrev zero : EReal := Ideal.ofBits .f32 0x00000000#32

/-- Row `r` of `a` against column `q` of `w`. -/
def rowDot (a : Nodes.Idx → EReal) (w : Weights.Idx → EReal) (r : Fin 50000) (q : Fin 128) : EReal :=
  ∑ k : Fin 128, a (ix2 r k) * w (ix2 k q)

/-- Linear layer, rectifier, residual: the value at one (node, feature) pair. -/
def entry (a : Nodes.Idx → EReal) (w : Weights.Idx → EReal) (x : Nodes.Idx → EReal) (r : Fin 50000) (q : Fin 128) : EReal :=
  max (rowDot a w r q) zero + x (ix2 r q)

/-- The whole output array. -/
def update (a : Nodes.Idx → EReal) (w : Weights.Idx → EReal) (x : Nodes.Idx → EReal) : Nodes.Idx → EReal :=
  fun i => entry a w x (i 0) (i 1)

theorem update_ix2 (a : Nodes.Idx → EReal) (w : Weights.Idx → EReal) (x : Nodes.Idx → EReal) (r : Fin 50000) (q : Fin 128) :
    update a w x (ix2 r q) = entry a w x r q := rfl

end Cert.NodeStage

end
-- ==== Proof.RefRead.lean ====
/-
  The reference program's result, read index by index, is the dense node-level stage (`NodeStage.update`) applied to
  the aggregated neighbour features (the scatter-add of the gathered rows, carried here as one array and never
  opened), the transposed weight matrix, and the nodes' own features.

  Entry (r, q) of the reference's matrix product sums, over k, the aggregated features at (r, k) times the
  transposed weights at (k, q); the rectifier is a maximum with the zero splat; the residual adds the input at (r, q).
-/
import proofs.«124274_j23106924052860_2_alg».proof.Proof.Gen.ReferenceIdeal.Read
import proofs.«124274_j23106924052860_2_alg».proof.Proof.NodeStage

noncomputable section

namespace Cert.ReferenceIdeal.RefValue

open Cert.ReferenceIdeal Cert.ReferenceIdeal.Gen Cert.ReferenceIdeal.Read
open Idealize.ShloMosaic Idealize.ShloMosaic.ValueIdx Cert.NodeStage

/-- The product's left factor at output (r, q) and summation index k sits at (r, k). -/
theorem left_at (r : Fin 50000) (q k : Fin 128) : lidx_main_v11 (ix2 r q) k = ix2 r k :=
  funext fun a => Fin.ext (by match a with | ⟨0, _⟩ => rfl | ⟨1, _⟩ => rfl)

/-- Its right factor sits at (k, q). -/
theorem right_at (r : Fin 50000) (q k : Fin 128) : ridx_main_v11 (ix2 r q) k = ix2 k q :=
  funext fun a => Fin.ext (by match a with | ⟨0, _⟩ => rfl | ⟨1, _⟩ => rfl)

/-- The reference's last stage is the node stage of its aggregated features, its transposed weights and its input. -/
theorem result_eq (x0 : (⟨S50000x128, .f32⟩ : BufTy).Contents (Elt Ideal)) (x1 : (⟨S128x128, .f32⟩ : BufTy).Contents (Elt Ideal))
    (x2 x3 : (⟨S800000, .i32⟩ : BufTy).Contents (Elt Ideal)) :
    val_main_v13 (F := Ideal) x0 x1 x2 x3
      = update (val_main_v9 (F := Ideal) x0 x2 x3) (val_main_v10 (F := Ideal) x1) x0 := by
  funext i
  obtain ⟨r, q, rfl⟩ : ∃ (r : Fin 50000) (q : Fin 128), i = ix2 r q := ⟨i 0, i 1, eq_ix2 i⟩
  rw [val_main_v13_apply, val_main_v12_apply, val_main_v11_apply, val_main_call0_v0_apply, val_main_call0_cst_apply,
    update_ix2]
  simp only [left_at, right_at]
  rfl

end Cert.ReferenceIdeal.RefValue

end
-- ==== Proof.BodyRead.lean ====
/-
  What the kernel body computes for one tile of 5000 nodes, read at one entry.

  The body loads the tile of aggregated features `a`, the whole 128 × 128 matrix `w` and the tile of the nodes' own
  features `x`; it multiplies `a` by `w` into a zero accumulator, takes the maximum with zero and adds `x`. The
  changes of float format in between are identities on the extended reals. So entry (p, q) of the stored tile is

      max (∑ k, a[p, k] · w[k, q]) 0 + x[p, q].
-/
import proofs.«124274_j23106924052860_2_alg».proof.Proof.Gen.KernelIdeal.Skeleton
import proofs.«124274_j23106924052860_2_alg».proof.Proof.NodeStage
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx

/-- The left factor's row is the output's row. -/
theorem left_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left factor's column is the summation index. -/
theorem left_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k

/-- The right factor's row is the summation index. -/
theorem right_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k

/-- The right factor's column is the output's column. -/
theorem right_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The tile product's left factor at output (p, q) and summation index k sits at (p, k). -/
theorem left_at (p : Fin 5000) (q : Fin 128) (k : dot_S5000x128_S128x128_S5000x128_1_0_0_1_n_n.contr.Idx) (k' : Fin 128)
    (hk : (k ⟨0, by decide⟩).val = k'.val) :
    dot_S5000x128_S128x128_S5000x128_1_0_0_1_n_n.lhsIdx (ix2 p q) k = ix2 p k' :=
  funext fun a => Fin.ext (by
    match a with
    | ⟨0, _⟩ => exact left_row _ _
    | ⟨1, _⟩ => exact (left_col _ _).trans hk)

/-- Its right factor sits at (k, q). -/
theorem right_at (p : Fin 5000) (q : Fin 128) (k : dot_S5000x128_S128x128_S5000x128_1_0_0_1_n_n.contr.Idx) (k' : Fin 128)
    (hk : (k ⟨0, by decide⟩).val = k'.val) :
    dot_S5000x128_S128x128_S5000x128_1_0_0_1_n_n.rhsIdx (ix2 p q) k = ix2 k' q :=
  funext fun a => Fin.ext (by
    match a with
    | ⟨0, _⟩ => exact (right_row _ _).trans hk
    | ⟨1, _⟩ => exact right_col _ _)

/-- The tile's matrix product into a zero accumulator, at one entry: a sum over the 128 shared features. -/
theorem product_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  rw [left_at p q _ k hk, right_at p q _ k hk]

/-- One entry of the tile the body stores. -/
theorem payload_at (a : FVec Ideal S5000x128 .f32) (w : FVec Ideal S128x128 .bf16) (x : FVec Ideal S5000x128 .f32)
    (p : Fin 5000) (q : Fin 128) :
    k0_pay1 (F := Ideal) a w x (ix2 p q)
      = max (∑ k : Fin 128, a (ix2 p k) * w (ix2 k q)) Cert.NodeStage.zero + x (ix2 p q) := by
  unfold k0_pay1
  refine (addf_apply _ _ _).trans ?_
  refine congrArg (· + x (ix2 p q)) ?_
  refine (maximumf_apply _ _ _).trans ?_
  refine congrArg₂ max ?_ rfl
  refine (product_at _ _ p q).trans ?_
  refine Finset.sum_congr rfl fun k _ => ?_
  rw [shapeCast_self, shapeCast_self]
  rfl

end Cert.KernelIdeal.Body

end
-- ==== Proof.Tiles.lean ====
/-
  From tiles to the whole array.

  The kernel walks the 50000 nodes in ten tiles of 5000 rows. At tile `t` it reads rows 5000·t … 5000·t + 4999 of
  the aggregated features and of the nodes' own features, the whole 128 × 128 matrix, and writes the same rows of
  the result. Since an output row depends only on the same row of its two row-wise inputs, what tile `t` writes is
  exactly rows 5000·t … of the node stage (`NodeStage.update`) of the three arrays; this holds for ANY three arrays
  read through the windows' blocks, so it is proved for arbitrary arrays and only then applied to the ones the tiled
  stage finds (whose contents are never looked into here). Row `r` lies in tile `r / 5000`, so the ten tiles cover
  the array, which therefore ends holding `update` of the three arrays.
-/
import proofs.«124274_j23106924052860_2_alg».proof.Proof.Gen.KernelIdeal.Value
import proofs.«124274_j23106924052860_2_alg».proof.Proof.BodyRead
import proofs.«124274_j23106924052860_2_alg».proof.Proof.NodeStage
import Idealize.ShloMosaic.Lib.Pipeline.Value

noncomputable section

namespace Cert.KernelIdeal.Tiles

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.NodeStage (update entry rowDot)

variable (m : (ℓ : Loc nD τ sig) → Buf (Elt Ideal) ℓ) (ρ : Dev nD → PrngReg)

theorem origin : (![0, 0] : Fin 2 → Nat) = fun _ => 0 := funext fun a => by fin_cases a <;> rfl

/-- There are ten tiles. -/
theorem tile_lt (t : Fin cfg0.N) : t.val < 10 := lt_of_lt_of_eq t.isLt N_0

/-- Where each window's block sits at tile `t`: the three row-wise windows at block row `t`, the matrix at the origin
    (decided over the ten tiles). -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of tile `t` is row 5000·t + p of the array. -/
def row (t : Fin cfg0.N) (p : Fin 5000) : Fin 50000 :=
  ⟨t.val * 5000 + p.val, by have := tile_lt t; have := p.isLt; omega⟩

/-- Where row `p`, column `k` of tile `t`'s block of the first window sits in its array. -/
theorem aggregated_at (t : Fin cfg0.N) (p : Fin 5000) (k : Fin 128) :
    ((cfg0.win 0).blk t).view.emb (ix2 p k) = (ix2 (row t p) k : S50000x128.Idx) := by
  obtain ⟨e0, e1, -⟩ := tile_index t
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The same for the second window. -/
theorem own_at (t : Fin cfg0.N) (p : Fin 5000) (q : Fin 128) :
    ((cfg0.win 1).blk t).view.emb (ix2 p q) = (ix2 (row t p) q : S50000x128.Idx) := by
  obtain ⟨-, -, e0, e1, -⟩ := tile_index t
  funext a
  apply Fin.ext
  match a with
  | ⟨0, _⟩ => show win0_1.index t (0 : Fin 2) * 5000 + 1 * p.val = t.val * 5000 + p.val; rw [e0]; omega
  | ⟨1, _⟩ => show win0_1.index t (1 : Fin 2) * 128 + 1 * q.val = q.val; rw [e1]; omega

/-- The third window's block is its whole array. -/
theorem matrix_at (t : Fin cfg0.N) (k q : Fin 128) :
    ((cfg0.win 2).blk t).view.emb (ix2 k q) = (ix2 k q : S128x128.Idx) := by
  obtain ⟨-, -, -, -, e0, e1, -⟩ := tile_index t
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The result window's block sits at the same rows. -/
theorem result_at (t : Fin cfg0.N) (p : Fin 5000) (q : Fin 128) :
    ((cfg0.win 3).blk t).view.emb (ix2 p q) = (ix2 (row t p) q : S50000x128.Idx) := by
  obtain ⟨-, -, -, -, -, -, e0, e1⟩ := tile_index t
  funext a
  apply Fin.ext
  match a with
  | ⟨0, _⟩ => show win0_3.index t (0 : Fin 2) * 5000 + 1 * p.val = t.val * 5000 + p.val; rw [e0]; omega
  | ⟨1, _⟩ => show win0_3.index t (1 : Fin 2) * 128 + 1 * q.val = q.val; rw [e1]; omega

/-- An entry of the stored tile, from any three loaded tiles that are the stated rows of three arrays: the node
    stage of the arrays at the tile's row. -/
theorem stored_entry (a : FVec Ideal S5000x128 .f32) (w : FVec Ideal S128x128 .bf16) (x : FVec Ideal S5000x128 .f32)
    (A : S50000x128.Idx → EReal) (W : S128x128.Idx → EReal) (X : S50000x128.Idx → EReal) (r : Fin 50000) (p : Fin 5000) (q : Fin 128)
    (ha : ∀ k : Fin 128, a (ix2 p k) = A (ix2 r k)) (hw : ∀ k : Fin 128, w (ix2 k q) = W (ix2 k q))
    (hx : x (ix2 p q) = X (ix2 r q)) :
    k0_pay1 (F := Ideal) a w x (ix2 p q) = update A W X (ix2 r q) := by
  rw [Body.payload_at, Cert.NodeStage.update_ix2, hx]
  unfold entry rowDot
  refine congrArg (fun s => max s Cert.NodeStage.zero + X (ix2 r q)) ?_
  exact Finset.sum_congr rfl fun k _ => by rw [ha k, hw k]

/-- The tile the body stores, from the three tiles it loads, for ANY three arrays read through the windows' blocks at
    tile `t`: the block of the node stage of those arrays. (Row `p` of each row-wise block is row 5000·t + p of its
    array, and the matrix block is the whole matrix.) -/
theorem stored_tile (t : Fin cfg0.N) (A : S50000x128.Idx → EReal) (W : S128x128.Idx → EReal) (X : S50000x128.Idx → EReal) :
    (cfg0.win 3).cut (grid0.coords t)
        (k0_pay1 (F := Ideal) (((cfg0.win 0).blk t).view.read (Elt Ideal) A) (((cfg0.win 2).blk t).view.read (Elt Ideal) W)
          (((cfg0.win 1).blk t).view.read (Elt Ideal) X))
      = ((cfg0.win 3).blk t).view.read (Elt Ideal) (update A W X) := by
  funext j
  obtain ⟨p, q, rfl⟩ : ∃ (p : Fin 5000) (q : Fin 128), j = ix2 p q := ⟨j 0, j 1, eq_ix2 j⟩
  show k0_pay1 (F := Ideal) _ _ _ (ix2 p q) = update A W X (((cfg0.win 3).blk t).view.emb (ix2 p q))
  rw [result_at t p q]
  refine stored_entry _ _ _ A W X (row t p) p q (fun k => ?_) (fun k => ?_) ?_
  · show A (((cfg0.win 0).blk t).view.emb (ix2 p k)) = _
    rw [aggregated_at t p k]
  · show W (((cfg0.win 2).blk t).view.emb (ix2 k q)) = _
    rw [matrix_at t k q]
  · show X (((cfg0.win 1).blk t).view.emb (ix2 p q)) = _
    rw [own_at t p q]

/-- What tile `t` writes back is the body's one store, cut to the block: the payload of the three loaded tiles. -/
theorem flushed_payload (c : Dev nD) (t : Fin cfg0.N) :
    (dats m 0 c).flushed 3 t
      = (cfg0.win 3).cut (grid0.coords t) (k0_pay1 (F := Ideal) (iblk m c 0 t) (iblk m c 2 t) (iblk m c 1 t)) := by
  rw [flushed3]
  unfold out0_3
  rw [View.canon_unit_zero origin]
  simp only [View.ld_unit_zero (S := S5000x128) origin, View.ld_unit_zero (S := S128x128) origin]

/-- What tile `t` writes back is the tile's rows of the node stage of the three arrays the region finds. -/
theorem flushed_eq (c : Dev nD) (t : Fin cfg0.N) :
    (dats m 0 c).flushed 3 t = ((cfg0.win 3).blk t).view.read (Elt Ideal)
      (update (V m c (Pipeline.arrRef spec0 (0 : Fin cfg0.W))) (V m c (Pipeline.arrRef spec0 (2 : Fin cfg0.W)))
        (V m c (Pipeline.arrRef spec0 (1 : Fin cfg0.W)))) := by
  refine (flushed_payload m c t).trans ?_
  delta iblk
  exact stored_tile t _ _ _

/-- An index of the array is in tile `t`'s block iff each coordinate is in the block's range on its axis. -/
theorem mem_tile (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v14).slice (win0_3.rect t)).set ↔ _
  rw [View.set_slice_whole, Rect.mem_set_unit]
  exact Iff.rfl

/-- Every index lies in some tile: row `r` in tile `r / 5000`. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e0, e1⟩ := tile_index t
  have ht : t.val = (i 0).val / 5000 := rfl
  refine ⟨t, flush0_3 t, ?_⟩
  rw [mem_tile]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- The result array after the run: the node stage of the three arrays the region finds (the first window's, the
    third window's and the second window's, in the order `update` takes them). -/
theorem final (c : Dev nD) :
    (dats m 0 c).arrAt 3 cfg0.N
      = update (V m c (Pipeline.arrRef spec0 (0 : Fin cfg0.W))) (V m c (Pipeline.arrRef spec0 (2 : Fin cfg0.W)))
          (V m c (Pipeline.arrRef spec0 (1 : Fin cfg0.W))) :=
  (dats m 0 c).arrAt_eq_of_cover 3
    (update (V m c (Pipeline.arrRef spec0 (0 : Fin cfg0.W))) (V m c (Pipeline.arrRef spec0 (2 : Fin cfg0.W)))
      (V m c (Pipeline.arrRef spec0 (1 : Fin cfg0.W))))
    (fun t _ => flushed_eq m c t) covered

end Cert.KernelIdeal.Tiles

end
-- ==== Proof.HostPrelude.lean ====
/-
  What the kernel's region finds in the two arrays the host computes before it.

  Before the tiled stage starts, the host wraps negative source indices, gathers one row of the features per edge,
  and adds each gathered row into the row of its destination node: the aggregated neighbour features. It also
  transposes the weight matrix. The kernel's program gathers from a copy of the features in a shorter float format
  and widens the gathered rows again, and it shortens the transposed weights; on the extended reals a change of float
  format is the identity, so both arrays are exactly the reference program's: the same scatter-add of the same
  gathered rows, and the same transpose.
-/
import proofs.«124274_j23106924052860_2_alg».proof.Proof.Gen.KernelIdeal.Frame
import proofs.«124274_j23106924052860_2_alg».proof.Proof.Gen.ReferenceIdeal.Read
import Idealize.ShloMosaic.Lib.StableHlo.Run

noncomputable section

namespace Cert.KernelIdeal.Prelude

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The aggregated neighbour features, as the kernel's host operations spell them. -/
def aggregated (x : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (extf .f32
      (Host.gather gather_S50000x128_S800000x1_S800000x128_1_0_n_n_0_1_1128 (truncf .bf16 x bitsLt_bf16_f32)
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      bitsLt_bf16_f32)

/-- The transposed weights, as the kernel's host operations spell them. -/
def transposed (w : (⟨S128x128, .f32⟩ : BufTy).Contents (Elt Ideal)) : (⟨S128x128, .bf16⟩ : BufTy).Contents (Elt Ideal) :=
  truncf (F := Ideal) .bf16 (transpose S128x128 [1, 0] w transposes_S128x128_S128x128_1_0) bitsLt_bf16_f32

/-- The first window's array when the region is entered: the aggregated features of the launch arguments. -/
theorem found_aggregated (c : Dev nD) :
    (V m c main_v11 : S50000x128.Idx → EReal)
      = aggregated (m ((c : Thread nD τ).loc main_arg0)) (m ((c : Thread nD τ).loc main_arg2)) (m ((c : Thread nD τ).loc main_arg3)) := by
  dsimp only [Gen.V, Gen.hostOps0]
  after_results
  rfl

/-- The third window's array when the region is entered: the transposed weights of the launch argument. -/
theorem found_transposed (c : Dev nD) :
    (V m c main_v13 : S128x128.Idx → EReal) = transposed (m ((c : Thread nD τ).loc main_arg1)) := by
  dsimp only [Gen.V, Gen.hostOps0]
  after_results
  rfl

/-- A shortening of the float format changes no extended real. -/
theorem shorten_id {s : Shape} (x : FVec Ideal s .f32) : (truncf .bf16 x bitsLt_bf16_f32 : s.Idx → EReal) = x := rfl

/-- Nor does a widening. -/
theorem widen_id {s : Shape} (x : FVec Ideal s .bf16) : (extf .f32 x bitsLt_bf16_f32 : s.Idx → EReal) = x := rfl

/-- The kernel's aggregated features are the reference's. -/
theorem aggregated_eq (x : (⟨S50000x128, .f32⟩ : BufTy).Contents (Elt Ideal)) (src dst : (⟨S800000, .i32⟩ : BufTy).Contents (Elt Ideal)) :
    aggregated x src dst = Cert.ReferenceIdeal.Read.val_main_v9 (F := Ideal) x src dst := by
  unfold aggregated Cert.ReferenceIdeal.Read.val_main_v9 Cert.ReferenceIdeal.Read.val_main_v7 Cert.ReferenceIdeal.Read.val_main_cst
    Cert.ReferenceIdeal.Read.val_main_v8 Cert.ReferenceIdeal.Read.val_main_v6 Cert.ReferenceIdeal.Read.val_main_v5
    Cert.ReferenceIdeal.Read.val_main_v4 Cert.ReferenceIdeal.Read.val_main_v1 Cert.ReferenceIdeal.Read.val_main_v3
    Cert.ReferenceIdeal.Read.val_main_v0 Cert.ReferenceIdeal.Read.val_main_v2 Cert.ReferenceIdeal.Read.val_main_c
    Cert.ReferenceIdeal.Read.val_main_c_0
  rw [widen_id, shorten_id]
  rfl

/-- The kernel's transposed weights are the reference's. -/
theorem transposed_eq (w : (⟨S128x128, .f32⟩ : BufTy).Contents (Elt Ideal)) :
    (transposed w : S128x128.Idx → EReal) = Cert.ReferenceIdeal.Read.val_main_v10 (F := Ideal) w := by
  unfold transposed Cert.ReferenceIdeal.Read.val_main_v10
  rw [shorten_id]

end Cert.KernelIdeal.Prelude

end
-- ==== Proof.KernelRun.lean ====
/-
  The idealized kernel's run, read: its result array ends holding the node stage (`NodeStage.update`) of the
  aggregated neighbour features, the transposed weights and the nodes' own features — all three written as the
  reference program writes them, as functions of the launch arguments.

  The tiled stage leaves `update` of the three arrays it finds (the tiles cover the array); the first two of those
  are what the host operations before it computed, which on the extended reals are the reference's aggregated
  features and transposed weights; the third is the untouched first argument.
-/
import proofs.«124274_j23106924052860_2_alg».proof.Proof.Tiles
import proofs.«124274_j23106924052860_2_alg».proof.Proof.HostPrelude

noncomputable section

namespace Cert.KernelIdeal.Result

open Cert.KernelIdeal Cert.KernelIdeal.Gen
open Idealize.ShloMosaic Idealize.ShloMosaic.TcCoe Idealize.SL.Sem
open Cert.NodeStage (update)

variable (m : (ℓ : Loc nD τ sig) → Buf (Elt Ideal) ℓ) (ρ : Dev nD → PrngReg)

/-- The result as one function of the four launch arguments: features, weights, edge sources, edge destinations. -/
def value (x : (⟨S50000x128, .f32⟩ : BufTy).Contents (Elt Ideal)) (w : (⟨S128x128, .f32⟩ : BufTy).Contents (Elt Ideal))
    (src dst : (⟨S800000, .i32⟩ : BufTy).Contents (Elt Ideal)) : (⟨S50000x128, .f32⟩ : BufTy).Contents (Elt Ideal) :=
  update (Cert.ReferenceIdeal.Read.val_main_v9 (F := Ideal) x src dst) (Cert.ReferenceIdeal.Read.val_main_v10 (F := Ideal) w) x

/-- The three windows' arrays are the buffers the program names: the aggregated features, the nodes' own
    features (the first argument) and the transposed weights. -/
theorem window0 (c : Dev nD) : V m c (Pipeline.arrRef spec0 (0 : Fin cfg0.W)) = V m c main_v11 := rfl
theorem window1 (c : Dev nD) : V m c (Pipeline.arrRef spec0 (1 : Fin cfg0.W)) = V m c main_arg0 := rfl
theorem window2 (c : Dev nD) : V m c (Pipeline.arrRef spec0 (2 : Fin cfg0.W)) = V m c main_v13 := rfl

/-- What the tiled stage finds, in the reference's spelling. -/
theorem found (c : Dev nD) :
    update (V m c (Pipeline.arrRef spec0 (0 : Fin cfg0.W))) (V m c (Pipeline.arrRef spec0 (2 : Fin cfg0.W)))
        (V m c (Pipeline.arrRef spec0 (1 : Fin cfg0.W)))
      = value (m ((c : Thread nD τ).loc main_arg0)) (m ((c : Thread nD τ).loc main_arg1))
          (m ((c : Thread nD τ).loc main_arg2)) (m ((c : Thread nD τ).loc main_arg3)) := by
  unfold value
  rw [window0 m c, window1 m c, window2 m c, ← Prelude.aggregated_eq, ← Prelude.transposed_eq,
    ← Prelude.found_aggregated m c, ← Prelude.found_transposed m c, V_main_arg0 m c]

/-- Every weakly fair execution of the idealized kernel terminates with the result array at `value` of the launch
    arguments and the arguments unchanged. -/
theorem run : θ_run defs (onTc (τ := τ) (main (F := Ideal))) ⟨m, fun _ => 0, ρ⟩ fun r => ∀ c : Dev nD,
      r.2.mem ((c : Thread nD τ).loc main_v14)
        = value (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((Tiles.final m c).trans (found m c)), (h c).2⟩)
    (Cert.KernelIdeal.Value.run_blocks m ρ)

end Cert.KernelIdeal.Result

end
-- ==== Proof.lean ====
/-
  Graph convolution, node update: for every node, sum the features of its incoming neighbours, apply a linear
  layer without bias, a rectifier, and add the node's own features. The kernel does the neighbour sum on the host
  and the dense part in ten tiles of 5000 nodes; the reference does everything on the host.

  On the extended reals both compute, at node r and feature q,

      max (∑ k, agg[r, k] · Wᵀ[k, q]) 0 + x[r, q],        agg = the scatter-add of the gathered rows of x,

  with the same gather, the same scatter-add and the same transpose: the kernel's changes of float format are
  identities there, its matrix product into a zero accumulator is the reference's product, and its tiling by rows
  is invisible because an output row depends only on the same row of `agg` and `x`. No rearrangement of a sum is
  involved, so the inputs' finiteness is never used.

  The three frames are the generated frame runs (the reference's with its result dropped); the idealization rewrote
  nothing, so it is preserved trivially; the two results are one function of the arguments (`Result.value`).
-/
import proofs.«124274_j23106924052860_2_alg».proof.Defs
import proofs.«124274_j23106924052860_2_alg».proof.Proof.Gen.Kernel
import proofs.«124274_j23106924052860_2_alg».proof.Proof.Gen.Kernel.Skeleton
import proofs.«124274_j23106924052860_2_alg».proof.Proof.Gen.Kernel.Launch
import proofs.«124274_j23106924052860_2_alg».proof.Proof.Gen.Kernel.Points
import proofs.«124274_j23106924052860_2_alg».proof.Proof.Gen.Kernel.Frame
import proofs.«124274_j23106924052860_2_alg».proof.Proof.Gen.KernelIdeal
import proofs.«124274_j23106924052860_2_alg».proof.Proof.Gen.KernelIdeal.Skeleton
import proofs.«124274_j23106924052860_2_alg».proof.Proof.Gen.KernelIdeal.Launch
import proofs.«124274_j23106924052860_2_alg».proof.Proof.Gen.KernelIdeal.Points
import proofs.«124274_j23106924052860_2_alg».proof.Proof.Gen.KernelIdeal.Frame
import proofs.«124274_j23106924052860_2_alg».proof.Proof.Gen.ReferenceIdeal
import proofs.«124274_j23106924052860_2_alg».proof.Proof.Gen.Pre_finite_inputs
import proofs.«124274_j23106924052860_2_alg».proof.Proof.Gen.KernelIdeal.Value
import proofs.«124274_j23106924052860_2_alg».proof.Proof.Gen.ReferenceIdeal.Run
import proofs.«124274_j23106924052860_2_alg».proof.Proof.Gen.ReferenceIdeal.Read
import proofs.«124274_j23106924052860_2_alg».proof.Proof.RefRead
import proofs.«124274_j23106924052860_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Run from memories that agree on the four arguments, the idealized kernel and the idealized reference both end
    with the result at `Result.value` of those arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v13_eq _ _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
